-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : FVec F S512x128 .f32) (main_arg2 : FVec F S128 .f32) (main_arg3 : FVec F S128x1 .f32) (main_arg4 : FVec F S1 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S50000x512 : Shape := ⟨2, ![50000, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 96
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x1, .f32⟩
  | .hbm, ⟨79, _⟩ => ⟨S850000x1, .f32⟩
  | .hbm, ⟨80, _⟩ => ⟨S850000x1, .f32⟩
  | .hbm, ⟨81, _⟩ => ⟨S_, .f32⟩
  | .hbm, ⟨82, _⟩ => ⟨S50000x1, .f32⟩
  | .hbm, ⟨83, _⟩ => ⟨S850000x1, .i32⟩
  | .hbm, ⟨84, _⟩ => ⟨S50000x1, .f32⟩
  | .hbm, ⟨85, _⟩ => ⟨S1x1, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x1, .f32⟩
  | .local _ .vmem, ⟨8, _⟩ => ⟨S5000x1, .f32⟩
  | .local _ .vmem, ⟨9, _⟩ => ⟨S5000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x1_S5000x1_1_0_0_1_n_n_wf : DotDims.WF S5000x128 S128x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S50000x512, .f32⟩
  | 1 => ⟨S512x128, .f32⟩
  | 2 => ⟨S128, .f32⟩
  | 3 => ⟨S128x1, .f32⟩
  | 4 => ⟨S1, .f32⟩
  | 5 => ⟨S2x800000, .i32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x1, .f32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x1, .f32⟩
  | 112 => ⟨S850000x1, .f32⟩
  | 113 => ⟨S850000x1, .f32⟩
  | 114 => ⟨S_, .f32⟩
  | 115 => ⟨S50000x1, .f32⟩
  | 116 => ⟨S850000x1, .i32⟩
  | 117 => ⟨S50000x1, .f32⟩
  | 118 => ⟨S1x1, .f32⟩
  | 119 => ⟨S50000x1, .f32⟩
  | 120 => ⟨S50000x1, .f32⟩
  | 121 => ⟨S50000x1, .f32⟩
  | 122 => ⟨S50000x1, .f32⟩
  | 123 => ⟨S_, .f32⟩
  | 124 => ⟨S50000x1, .f32⟩
  | 125 => ⟨S50000x1, .f32⟩
  | 126 => ⟨S_, .f32⟩
  | 127 => ⟨S50000x1, .f32⟩
  | _ => ⟨S50000x512, .f32⟩

abbrev hbmTy0_1 (i : Nat) : BufTy := match i % 128 with
  | 0 => ⟨S50000x1, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.Spec.lean ====
/-
  The two-layer graph convolution both programs compute, as one function of the argument arrays, over any float values.

  The graph has n = 50000 nodes and 800000 directed edges given as two rows of node numbers (sources, destinations);
  every node also gets a self loop, so there are 850000 messages. With deg(v) the number of messages arriving at v and
  d(v) = deg(v)^(-1/2) where deg(v) > 0 (else 0), message k from s to t carries the weight norm(k) = d(s) · d(t). A layer
  maps node features h to  out(t) = Σ_{k : dst(k) = t} (h·W)(src(k)) · norm(k) + b.  The network is
  sigmoid(layer₂(relu(layer₁(x)))). Everything except the two products h·W is written here once, as definitions that
  take the product's result (`hw`) as an argument; the two programs differ only in how they form h·W.

  A node number read as an index into an axis of length n is first wrapped: a negative number counts from the end.
-/
import proofs.«168555_j64304250356313_1_alg».proof.Proof.Gen.ReferenceIdeal

noncomputable section

namespace Cert.Gcn

open Idealize.ShloMosaic Cert.ReferenceIdeal Cert.ReferenceIdeal.Gen

variable {F : FTy → Type} [FloatOps F]

/-- An array of 32-bit integers of shape `s`. -/
abbrev I32 (F : FTy → Type) (s : Shape) : Type := (⟨s, .i32⟩ : BufTy).Contents (Elt F)
/-- An array of f32 values of shape `s`. -/
abbrev F32 (F : FTy → Type) (s : Shape) : Type := (⟨s, .f32⟩ : BufTy).Contents (Elt F)

/-- The source of every message: row 0 of the edge list, then the self loops 0, …, n-1. -/
def srcEnds (e : I32 F S2x800000) : I32 F S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination of every message: row 1 of the edge list, then the self loops. -/
def dstEnds (e : I32 F S2x800000) : I32 F S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number as an index into an axis of length n: a negative one counts from the end (v < 0 ? v + n : v). -/
def wrapIdx (v : I32 F S850000) : I32 F S850000 :=
  select (cmpi .slt v (broadcastInDim S850000 ![] bcast_S_S850000 (constantI S_ 32 0#32))) (addi v (broadcastInDim S850000 ![] bcast_S_S850000 (constantI S_ 32 50000#32))) v

/-- deg: the number of messages arriving at each node — ones scattered and added along the destinations. -/
def degree (dst : I32 F S850000) : F32 F S50000 :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- d = deg^(-1/2) where deg > 0, else 0. -/
def invSqrtDegree (dst : I32 F S850000) : F32 F S50000 :=
  select (cmpf (F := F) .ogt (degree dst) (broadcastInDim S50000 ![] bcast_S_S50000 (constant S_ .f32 0x00000000#32))) (Host.rsqrt (degree dst)) (broadcastInDim S50000 ![] bcast_S_S50000 (id (constant S_ .f32 0x00000000#32)))

/-- norm(k) = d(src k) · d(dst k), one weight per message. -/
def edgeNorm (src dst : I32 F S850000) : F32 F S850000 :=
  mulf (Host.gather gather_S50000_S850000x1_S850000_n_0_n_n_0_1_1 (invSqrtDegree dst) (broadcastInDim S850000x1 ![0] bcast_S850000_S850000x1_0 (wrapIdx src))) (Host.gather gather_S50000_S850000x1_S850000_n_0_n_n_0_1_1 (invSqrtDegree dst) (broadcastInDim S850000x1 ![0] bcast_S850000_S850000x1_0 (wrapIdx dst)))

/-- The first layer after its product `hw = x·W₁` (n × 128): gather the sources' rows, scale each by its message's
    weight, add them up at the destinations, add the bias. -/
def aggregate1 (hw : F32 F S50000x128) (src dst : I32 F S850000) (nrm : F32 F S850000) (b : F32 F S128) : F32 F S50000x128 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 hw (broadcastInDim S850000x1 ![0] bcast_S850000_S850000x1_0 (wrapIdx src))) (broadcastInDim S850000x128 ![0, 1] bcast_S850000x1_S850000x128_0_1 (broadcastInDim S850000x1 ![0] bcast_S850000_S850000x1_0 nrm)))) (broadcastInDim S50000x128 ![0, 1] bcast_S1x128_S50000x128_0_1 (broadcastInDim S1x128 ![1] bcast_S128_S1x128_1 b))

/-- relu: the maximum with zero. -/
def relu (h : F32 F S50000x128) : F32 F S50000x128 :=
  maximumf h (broadcastInDim S50000x128 ![] bcast_S_S50000x128 (constant S_ .f32 0x00000000#32))

/-- The second layer after its product `hw = h·W₂` (n × 1): the same gather, scale, scatter-add and bias. -/
def aggregate2 (hw : F32 F S50000x1) (src dst : I32 F S850000) (nrm : F32 F S850000) (b : F32 F S1) : F32 F S50000x1 :=
  addf (Host.scatterAdd scatter_S50000x1_S850000x1_S850000x1_1_0_0_1 (broadcastInDim S50000x1 ![] bcast_S_S50000x1 (constant S_ .f32 0x00000000#32)) (broadcastInDim S850000x1 ![0] bcast_S850000_S850000x1_0 dst) (mulf (Host.gather gather_S50000x1_S850000x1_S850000x1_1_0_n_n_0_1_11 hw (broadcastInDim S850000x1 ![0] bcast_S850000_S850000x1_0 (wrapIdx src))) (broadcastInDim S850000x1 ![0] bcast_S850000_S850000x1_0 nrm))) (broadcastInDim S50000x1 ![0, 1] bcast_S1x1_S50000x1_0_1 (broadcastInDim S1x1 ![1] bcast_S1_S1x1_1 b))

/-- sigmoid z = 1 / (1 + exp(-z)). -/
def sigmoid (z : F32 F S50000x1) : F32 F S50000x1 :=
  Host.divf (broadcastInDim S50000x1 ![] bcast_S_S50000x1 (constant S_ .f32 0x3F800000#32)) (addf (broadcastInDim S50000x1 ![] bcast_S_S50000x1 (constant S_ .f32 0x3F800000#32)) (Host.exp (Host.negf z)))

/-- The whole network, its two products the host's `dot_general`. -/
def gcn (x : F32 F S50000x512) (w1 : F32 F S512x128) (b1 : F32 F S128) (w2 : F32 F S128x1) (b2 : F32 F S1) (e : I32 F S2x800000) : F32 F S50000x1 :=
  sigmoid (aggregate2 (Host.dotGeneral dot_S50000x128_S128x1_S50000x1_1_0_0_1_n_n none (relu (aggregate1 (Host.dotGeneral dot_S50000x512_S512x128_S50000x128_1_0_0_1_n_n none x w1) (srcEnds e) (dstEnds e) (edgeNorm (srcEnds e) (dstEnds e)) b1)) w2) (srcEnds e) (dstEnds e) (edgeNorm (srcEnds e) (dstEnds e)) b2)

end Cert.Gcn

end
-- ==== Proof.RefIsSpec.lean ====
/-
  The reference program's result is the network of `Cert.Gcn.gcn`: its run's composed term, with each shared piece
  (the message ends, the degree normalisation, the two aggregations, relu, sigmoid) folded back into its definition,
  is that function of the argument arrays — the same operations in the same order, so the two terms coincide.
-/
import proofs.«168555_j64304250356313_1_alg».proof.Proof.RefRunP
import proofs.«168555_j64304250356313_1_alg».proof.Proof.Spec

noncomputable section

namespace Cert.Gcn

open Idealize.ShloMosaic Idealize.ShloMosaic.TcCoe Idealize.SL.Sem Cert.ReferenceIdeal

variable {F : FTy → Type} [FloatOps F]

set_option maxRecDepth 16384 in
/-- The reference's result buffer ends at `gcn` of its six argument arrays. -/
theorem reference_result (m : (ℓ : Loc nD τ sig) → Buf (Elt F) ℓ) (c : Dev nD) :
    Cert.ReferenceIdeal.ValueP.res_main_v92 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v92 gcn sigmoid aggregate2 relu aggregate1 edgeNorm invSqrtDegree degree wrapIdx srcEnds dstEnds
  rfl

end Cert.Gcn

end
-- ==== Proof.HostWalk.lean ====
/-
  The host stretches of the idealized kernel, read back. The run's boundary contents are a fold from the launch
  memory: three stretches (W1, W2, W3) up to the first product's region, two more (W5, W6) up to the second's, one (W8)
  after it. Each lemma says what one stretch leaves in a buffer a later segment reads, in terms of the contents it
  was entered with:
  * before the first region: the message sources, the message destinations and the per-message weight d(src)·d(dst)
    are functions of the edge list alone; the arguments are untouched;
  * between the regions: relu of the first layer's aggregation of the first product's array; the message ends, the
    weights and the later arguments are carried over untouched;
  * after the second region: sigmoid of the second layer's aggregation of the second product's array.
-/
import proofs.«168555_j64304250356313_1_alg».proof.Proof.Gen.KernelIdeal.Frame
import proofs.«168555_j64304250356313_1_alg».proof.Proof.Spec

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Up to the first region -/

/-- The message sources: row 0 of the edge list, then the self loops. -/
theorem W3_src : W3 m ρ c (Proc.devRef .tc main_v3) = Cert.Gcn.srcEnds (m ((c : Thread nD τ).loc main_arg5)) := by
  dsimp only [W3, W2, W1, W0, hostOps0, hostOps0_1, hostOps0_2]
  after_results_simp
  rfl

/-- The message destinations: row 1 of the edge list, then the self loops. -/
theorem W3_dst : W3 m ρ c (Proc.devRef .tc main_v6) = Cert.Gcn.dstEnds (m ((c : Thread nD τ).loc main_arg5)) := by
  dsimp only [W3, W2, W1, W0, hostOps0, hostOps0_1, hostOps0_2]
  after_results_simp
  rfl

/-- The per-message weights d(src)·d(dst), from the degrees of the destinations. -/
theorem W3_norm : W3 m ρ c (Proc.devRef .tc main_v29)
    = Cert.Gcn.edgeNorm (Cert.Gcn.srcEnds (m ((c : Thread nD τ).loc main_arg5))) (Cert.Gcn.dstEnds (m ((c : Thread nD τ).loc main_arg5))) := by
  dsimp only [W3, W2, W1, W0, hostOps0, hostOps0_1, hostOps0_2]
  after_results_simp
  rfl

/-- No operation before the first region writes an argument. -/
theorem W3_arg0 : W3 m ρ c (Proc.devRef .tc main_arg0) = m ((c : Thread nD τ).loc main_arg0) := by
  dsimp only [W3, W2, W1, W0, hostOps0, hostOps0_1, hostOps0_2]
  after_results_simp
theorem W3_arg1 : W3 m ρ c (Proc.devRef .tc main_arg1) = m ((c : Thread nD τ).loc main_arg1) := by
  dsimp only [W3, W2, W1, W0, hostOps0, hostOps0_1, hostOps0_2]
  after_results_simp
theorem W3_arg2 : W3 m ρ c (Proc.devRef .tc main_arg2) = m ((c : Thread nD τ).loc main_arg2) := by
  dsimp only [W3, W2, W1, W0, hostOps0, hostOps0_1, hostOps0_2]
  after_results_simp
theorem W3_arg3 : W3 m ρ c (Proc.devRef .tc main_arg3) = m ((c : Thread nD τ).loc main_arg3) := by
  dsimp only [W3, W2, W1, W0, hostOps0, hostOps0_1, hostOps0_2]
  after_results_simp
theorem W3_arg4 : W3 m ρ c (Proc.devRef .tc main_arg4) = m ((c : Thread nD τ).loc main_arg4) := by
  dsimp only [W3, W2, W1, W0, hostOps0, hostOps0_1, hostOps0_2]
  after_results_simp

/-! ## Between the regions -/

/-- The hidden layer: relu of the first layer's aggregation of the first product's array. -/
theorem W6_hidden : W6 m ρ c (Proc.devRef .tc main_v47)
    = Cert.Gcn.relu (Cert.Gcn.aggregate1 (W4 m ρ c (Proc.devRef .tc main_v30)) (W4 m ρ c (Proc.devRef .tc main_v3))
        (W4 m ρ c (Proc.devRef .tc main_v6)) (W4 m ρ c (Proc.devRef .tc main_v29)) (W4 m ρ c (Proc.devRef .tc main_arg2))) := by
  dsimp only [W6, W5, hostOps1, hostOps1_1]
  after_results_simp
  rfl

/-- The stretch between the regions writes none of the message ends, the weights, or the later arguments. -/
theorem W6_src : W6 m ρ c (Proc.devRef .tc main_v3) = W4 m ρ c (Proc.devRef .tc main_v3) := by
  dsimp only [W6, W5, hostOps1, hostOps1_1]
  after_results_simp
theorem W6_dst : W6 m ρ c (Proc.devRef .tc main_v6) = W4 m ρ c (Proc.devRef .tc main_v6) := by
  dsimp only [W6, W5, hostOps1, hostOps1_1]
  after_results_simp
theorem W6_norm : W6 m ρ c (Proc.devRef .tc main_v29) = W4 m ρ c (Proc.devRef .tc main_v29) := by
  dsimp only [W6, W5, hostOps1, hostOps1_1]
  after_results_simp
theorem W6_arg3 : W6 m ρ c (Proc.devRef .tc main_arg3) = W4 m ρ c (Proc.devRef .tc main_arg3) := by
  dsimp only [W6, W5, hostOps1, hostOps1_1]
  after_results_simp
theorem W6_arg4 : W6 m ρ c (Proc.devRef .tc main_arg4) = W4 m ρ c (Proc.devRef .tc main_arg4) := by
  dsimp only [W6, W5, hostOps1, hostOps1_1]
  after_results_simp

/-! ## After the second region -/

/-- The result: sigmoid of the second layer's aggregation of the second product's array. -/
theorem W8_result : W8 m ρ c (Proc.devRef .tc main_v69)
    = Cert.Gcn.sigmoid (Cert.Gcn.aggregate2 (W7 m ρ c (Proc.devRef .tc main_v48)) (W7 m ρ c (Proc.devRef .tc main_v3))
        (W7 m ρ c (Proc.devRef .tc main_v6)) (W7 m ρ c (Proc.devRef .tc main_v29)) (W7 m ρ c (Proc.devRef .tc main_arg4))) := by
  dsimp only [W8, hostOps2]
  after_results_simp
  rfl

end Cert.KernelIdeal.Walk

end
-- ==== Proof.MatProd.lean ====
/-
  The matrix product of two arrays of extended reals, index by index: (X·W)(r, c) = Σ_k X(r, k) · W(k, c).
  Both programs' products are shown equal to this one function: the host's `dot_general` directly, the kernel's
  blocked product — ten row blocks of 5000 rows, each multiplied by the whole right operand — block by block.
-/
import Idealize.ShloMosaic.Lib.ValueIdx
import Idealize.ShloMosaic.PureOps.Ideal

noncomputable section

namespace Cert.Gcn

open Idealize.ShloMosaic

/-- (X·W)(r, c) = Σ_k X(r, k) · W(k, c), over the extended reals. -/
def matProd (M K N : Nat) (X : (⟨2, ![M, K]⟩ : Shape).Idx → EReal) (W : (⟨2, ![K, N]⟩ : Shape).Idx → EReal) :
    (⟨2, ![M, N]⟩ : Shape).Idx → EReal :=
  fun i => ∑ k : Fin K, X (ValueIdx.ix2 ⟨(i 0).val, ValueIdx.idx2_lt0 i⟩ k) * W (ValueIdx.ix2 k ⟨(i 1).val, ValueIdx.idx2_lt1 i⟩)

end Cert.Gcn

end
-- ==== Proof.KernelProduct0.lean ====
/-
  The first product, computed by the kernel in ten row blocks. At grid point t the body loads rows
  5000·t … 5000·t + 4999 of the left operand and the whole right operand, multiplies them on the matrix unit into a
  zero accumulator (a change of float format is the identity over the extended reals) and stores the block; the block
  is written back to rows 5000·t … 5000·t + 4999 of the result. So entry (5000·t + p, q) of the result array is
  Σ_k X(5000·t + p, k) · W(k, q): block t of the product of the whole arrays. The ten blocks cover the array.
-/
import proofs.«168555_j64304250356313_1_alg».proof.Proof.Gen.KernelIdeal.Frame
import proofs.«168555_j64304250356313_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Product0

open Idealize.ShloMosaic Idealize.ShloMosaic.TcCoe Idealize.SL.Sem
open Idealize.ShloMosaic.Pipeline (Dat)
open Cert.KernelIdeal Cert.KernelIdeal.Gen

/-! ## The matrix unit's operand indices: output entry (p, q) and contraction index k meet X at (p, k) and W at (k, q) -/

theorem lhs_0 (j : S5000x128.Idx) (q : dot_S5000x512_S512x128_S5000x128_1_0_0_1_n_n.contr.Idx) :
    (dot_S5000x512_S512x128_S5000x128_1_0_0_1_n_n.lhsIdx j q 0).val = (j 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_1 (j : S5000x128.Idx) (q : dot_S5000x512_S512x128_S5000x128_1_0_0_1_n_n.contr.Idx) :
    (dot_S5000x512_S512x128_S5000x128_1_0_0_1_n_n.lhsIdx j q 1).val = (q ⟨0, by decide⟩).val :=
  dot_S5000x512_S512x128_S5000x128_1_0_0_1_n_n.lhsIdx_val_of_single rfl j q
theorem rhs_0 (j : S5000x128.Idx) (q : dot_S5000x512_S512x128_S5000x128_1_0_0_1_n_n.contr.Idx) :
    (dot_S5000x512_S512x128_S5000x128_1_0_0_1_n_n.rhsIdx j q 0).val = (q ⟨0, by decide⟩).val :=
  dot_S5000x512_S512x128_S5000x128_1_0_0_1_n_n.rhsIdx_val_of_single rfl j q
theorem rhs_1 (j : S5000x128.Idx) (q : dot_S5000x512_S512x128_S5000x128_1_0_0_1_n_n.contr.Idx) :
    (dot_S5000x512_S512x128_S5000x128_1_0_0_1_n_n.rhsIdx j q 1).val = (j 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The body's stored value at entry (p, q) of the block: Σ_k x0(p, k) · x1(k, q). -/
theorem pay_apply (x0 : Vec Ideal S5000x512 .f32) (x1 : Vec Ideal S512x128 .f32) (j : S5000x128.Idx) :
    k0_pay1 (F := Ideal) x0 x1 j
      = ∑ k : Fin 512, x0 (ValueIdx.ix2 ⟨(j 0).val, ValueIdx.idx2_lt0 j⟩ k) * x1 (ValueIdx.ix2 k ⟨(j 1).val, ValueIdx.idx2_lt1 j⟩) := by
  unfold k0_pay1
  refine (Ideal.matmul_constant_zero_apply dot_S5000x512_S512x128_S5000x128_1_0_0_1_n_n none _ _ j).trans ?_
  rw [← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx j ((ValueIdx.contrEquiv1 dot_S5000x512_S512x128_S5000x128_1_0_0_1_n_n 512 rfl rfl).symm k)
      = ValueIdx.ix2 ⟨(j 0).val, ValueIdx.idx2_lt0 j⟩ k := funext fun a => Fin.ext (by
    match a with
    | ⟨0, _⟩ => exact lhs_0 _ _
    | ⟨1, _⟩ => exact (lhs_1 _ _).trans hk)
  have er : dot_S5000x512_S512x128_S5000x128_1_0_0_1_n_n.rhsIdx j ((ValueIdx.contrEquiv1 dot_S5000x512_S512x128_S5000x128_1_0_0_1_n_n 512 rfl rfl).symm k)
      = ValueIdx.ix2 k ⟨(j 1).val, ValueIdx.idx2_lt1 j⟩ := funext fun a => Fin.ext (by
    match a with
    | ⟨0, _⟩ => exact (rhs_0 _ _).trans hk
    | ⟨1, _⟩ => exact rhs_1 _ _)
  rw [el, er]
  rfl

/-! ## The blocks -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the left operand's and the result's row block is the point's own, every
    other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ (q0 : Fin 10) (q1 : Fin 1), ∃ t : Fin cfg0.N, win0_2.index t = ![q0.val + 0, q1.val + 0] :=
  (by decide +kernel : ∀ (q0 : Fin 10) (q1 : Fin 1), ∃ t : Fin grid0.N, win0_2.index t = ![q0.val + 0, q1.val + 0])

/-- The left operand's block at point t, entry (p, k), is the array's entry (5000·t + p, k). -/
theorem left_apply (t : Fin cfg0.N) (x : S5000x512.Idx) (i : S50000x512.Idx)
    (h0 : (i 0).val = win0_2.index t (0 : Fin 2) * 5000 + (x 0).val) (h1 : (i 1).val = (x 1).val) :
    (iblk0 V c 0 t : Vec Ideal S5000x512 .f32) x = (V c (Pipeline.arrRef spec0 0) : S50000x512.Idx → EReal) i := by
  obtain ⟨e0, e1, e2, e3, e4, e5⟩ := idx_facts t
  unfold iblk0
  rw [View.read_apply]
  show V c (Pipeline.arrRef spec0 0) (((cfg0.win 0).blk t).view.emb x) = V c (Pipeline.arrRef spec0 0) i
  refine congrArg _ (funext fun a => Fin.ext ?_)
  match a with
  | ⟨0, _⟩ => show win0_0.index t (0 : Fin 2) * 5000 + 1 * (x 0).val = (i 0).val; omega
  | ⟨1, _⟩ => show win0_0.index t (1 : Fin 2) * 512 + 1 * (x 1).val = (i 1).val; omega

/-- The right operand's one block is the whole array. -/
theorem right_apply (t : Fin cfg0.N) (x : S512x128.Idx) (i : S512x128.Idx)
    (h0 : (i 0).val = (x 0).val) (h1 : (i 1).val = (x 1).val) :
    (iblk0 V c 1 t : Vec Ideal S512x128 .f32) x = (V c (Pipeline.arrRef spec0 1) : S512x128.Idx → EReal) i := by
  obtain ⟨e0, e1, e2, e3, e4, e5⟩ := idx_facts t
  unfold iblk0
  rw [View.read_apply]
  show V c (Pipeline.arrRef spec0 1) (((cfg0.win 1).blk t).view.emb x) = V c (Pipeline.arrRef spec0 1) i
  refine congrArg _ (funext fun a => Fin.ext ?_)
  match a with
  | ⟨0, _⟩ => show win0_1.index t (0 : Fin 2) * 512 + 1 * (x 0).val = (i 0).val; omega
  | ⟨1, _⟩ => show win0_1.index t (1 : Fin 2) * 128 + 1 * (x 1).val = (i 1).val; omega

/-- WHAT POINT t WRITES BACK is block t of the product of the two arrays as the region finds them. -/
theorem flushed_eq (t : Fin cfg0.N) :
    (dat0 V c).flushed 2 t = ((cfg0.win 2).blk t).view.read (Elt Ideal)
      (Cert.Gcn.matProd 50000 512 128 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  funext j
  rw [View.read_apply]
  show k0_pay1 (F := Ideal) (iblk0 V c 0 t) (iblk0 V c 1 t) j = _
  refine (pay_apply (iblk0 V c 0 t) (iblk0 V c 1 t) j).trans ?_
  unfold Cert.Gcn.matProd
  refine Finset.sum_congr rfl fun k _ => ?_
  have hl := left_apply V c t (ValueIdx.ix2 ⟨(j 0).val, ValueIdx.idx2_lt0 j⟩ k)
    (ValueIdx.ix2 ⟨((((cfg0.win 2).blk t).view.emb j) 0).val, ValueIdx.idx2_lt0 _⟩ k)
    (by show ((((cfg0.win 2).blk t).view.emb j) 0).val = win0_2.index t (0 : Fin 2) * 5000 + (j 0).val
        show win0_2.index t (0 : Fin 2) * 5000 + 1 * (j 0).val = win0_2.index t (0 : Fin 2) * 5000 + (j 0).val
        omega) rfl
  have hr := right_apply V c t (ValueIdx.ix2 k ⟨(j 1).val, ValueIdx.idx2_lt1 j⟩)
    (ValueIdx.ix2 k ⟨((((cfg0.win 2).blk t).view.emb j) 1).val, ValueIdx.idx2_lt1 _⟩) rfl
    (by obtain ⟨e0, e1, e2, e3, e4, e5⟩ := idx_facts t
        show ((((cfg0.win 2).blk t).view.emb j) 1).val = (j 1).val
        show win0_2.index t (1 : Fin 2) * 128 + 1 * (j 1).val = (j 1).val
        omega)
  rw [hl, hr]

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000 - 0, by omega⟩ ⟨(i 1).val / 128 - 0, by omega⟩
  have q0 : win0_2.index t (0 : Fin 2) = (i 0).val / 5000 - 0 + 0 := congrFun ht 0
  have q1 : win0_2.index t (1 : Fin 2) = (i 1).val / 128 - 0 + 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the product of the two operand arrays as the region finds them. -/
theorem array_eq : (dat0 V c).arrAt 2 cfg0.N
    = Cert.Gcn.matProd 50000 512 128 (V c (Pipeline.arrRef spec0 0)) (V c (Pipeline.arrRef spec0 1)) :=
  (dat0 V c).arrAt_eq_of_cover 2 _ (fun t _ => flushed_eq V c t) cover

end Cert.KernelIdeal.Product0

end
-- ==== Proof.KernelProduct1.lean ====
/-
  The second product, computed by the kernel in ten row blocks. At grid point t the body loads rows
  5000·t … 5000·t + 4999 of the left operand and the whole right operand, multiplies them on the matrix unit into a
  zero accumulator (a change of float format is the identity over the extended reals) and stores the block; the block
  is written back to rows 5000·t … 5000·t + 4999 of the result. So entry (5000·t + p, q) of the result array is
  Σ_k X(5000·t + p, k) · W(k, q): block t of the product of the whole arrays. The ten blocks cover the array.
-/
import proofs.«168555_j64304250356313_1_alg».proof.Proof.Gen.KernelIdeal.Frame
import proofs.«168555_j64304250356313_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Product1

open Idealize.ShloMosaic Idealize.ShloMosaic.TcCoe Idealize.SL.Sem
open Idealize.ShloMosaic.Pipeline (Dat)
open Cert.KernelIdeal Cert.KernelIdeal.Gen

/-! ## The matrix unit's operand indices: output entry (p, q) and contraction index k meet X at (p, k) and W at (k, q) -/

theorem lhs_0 (j : S5000x1.Idx) (q : dot_S5000x128_S128x1_S5000x1_1_0_0_1_n_n.contr.Idx) :
    (dot_S5000x128_S128x1_S5000x1_1_0_0_1_n_n.lhsIdx j q 0).val = (j 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_1 (j : S5000x1.Idx) (q : dot_S5000x128_S128x1_S5000x1_1_0_0_1_n_n.contr.Idx) :
    (dot_S5000x128_S128x1_S5000x1_1_0_0_1_n_n.lhsIdx j q 1).val = (q ⟨0, by decide⟩).val :=
  dot_S5000x128_S128x1_S5000x1_1_0_0_1_n_n.lhsIdx_val_of_single rfl j q
theorem rhs_0 (j : S5000x1.Idx) (q : dot_S5000x128_S128x1_S5000x1_1_0_0_1_n_n.contr.Idx) :
    (dot_S5000x128_S128x1_S5000x1_1_0_0_1_n_n.rhsIdx j q 0).val = (q ⟨0, by decide⟩).val :=
  dot_S5000x128_S128x1_S5000x1_1_0_0_1_n_n.rhsIdx_val_of_single rfl j q
theorem rhs_1 (j : S5000x1.Idx) (q : dot_S5000x128_S128x1_S5000x1_1_0_0_1_n_n.contr.Idx) :
    (dot_S5000x128_S128x1_S5000x1_1_0_0_1_n_n.rhsIdx j q 1).val = (j 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The body's stored value at entry (p, q) of the block: Σ_k x0(p, k) · x1(k, q). -/
theorem pay_apply (x0 : Vec Ideal S5000x128 .f32) (x1 : Vec Ideal S128x1 .f32) (j : S5000x1.Idx) :
    k1_pay1 (F := Ideal) x0 x1 j
      = ∑ k : Fin 128, x0 (ValueIdx.ix2 ⟨(j 0).val, ValueIdx.idx2_lt0 j⟩ k) * x1 (ValueIdx.ix2 k ⟨(j 1).val, ValueIdx.idx2_lt1 j⟩) := by
  unfold k1_pay1
  refine (Ideal.matmul_constant_zero_apply dot_S5000x128_S128x1_S5000x1_1_0_0_1_n_n none _ _ j).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx j ((ValueIdx.contrEquiv1 dot_S5000x128_S128x1_S5000x1_1_0_0_1_n_n 128 rfl rfl).symm k)
      = ValueIdx.ix2 ⟨(j 0).val, ValueIdx.idx2_lt0 j⟩ k := funext fun a => Fin.ext (by
    match a with
    | ⟨0, _⟩ => exact lhs_0 _ _
    | ⟨1, _⟩ => exact (lhs_1 _ _).trans hk)
  have er : dot_S5000x128_S128x1_S5000x1_1_0_0_1_n_n.rhsIdx j ((ValueIdx.contrEquiv1 dot_S5000x128_S128x1_S5000x1_1_0_0_1_n_n 128 rfl rfl).symm k)
      = ValueIdx.ix2 k ⟨(j 1).val, ValueIdx.idx2_lt1 j⟩ := funext fun a => Fin.ext (by
    match a with
    | ⟨0, _⟩ => exact (rhs_0 _ _).trans hk
    | ⟨1, _⟩ => exact rhs_1 _ _)
  rw [el, er]
  rw [shapeCast_self]
  rfl

/-! ## The blocks -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the left operand's and the result's row block is the point's own, every
    other block index is zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto : ∀ (q0 : Fin 10) (q1 : Fin 1), ∃ t : Fin cfg1.N, win1_2.index t = ![q0.val + 0, q1.val + 0] :=
  (by decide +kernel : ∀ (q0 : Fin 10) (q1 : Fin 1), ∃ t : Fin grid1.N, win1_2.index t = ![q0.val + 0, q1.val + 0])

/-- The left operand's block at point t, entry (p, k), is the array's entry (5000·t + p, k). -/
theorem left_apply (t : Fin cfg1.N) (x : S5000x128.Idx) (i : S50000x128.Idx)
    (h0 : (i 0).val = win1_2.index t (0 : Fin 2) * 5000 + (x 0).val) (h1 : (i 1).val = (x 1).val) :
    (iblk1 V c 0 t : Vec Ideal S5000x128 .f32) x = (V c (Pipeline.arrRef spec1 0) : S50000x128.Idx → EReal) i := by
  obtain ⟨e0, e1, e2, e3, e4, e5⟩ := idx_facts t
  unfold iblk1
  rw [View.read_apply]
  show V c (Pipeline.arrRef spec1 0) (((cfg1.win 0).blk t).view.emb x) = V c (Pipeline.arrRef spec1 0) i
  refine congrArg _ (funext fun a => Fin.ext ?_)
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- The right operand's one block is the whole array. -/
theorem right_apply (t : Fin cfg1.N) (x : S128x1.Idx) (i : S128x1.Idx)
    (h0 : (i 0).val = (x 0).val) (h1 : (i 1).val = (x 1).val) :
    (iblk1 V c 1 t : Vec Ideal S128x1 .f32) x = (V c (Pipeline.arrRef spec1 1) : S128x1.Idx → EReal) i := by
  obtain ⟨e0, e1, e2, e3, e4, e5⟩ := idx_facts t
  unfold iblk1
  rw [View.read_apply]
  show V c (Pipeline.arrRef spec1 1) (((cfg1.win 1).blk t).view.emb x) = V c (Pipeline.arrRef spec1 1) i
  refine congrArg _ (funext fun a => Fin.ext ?_)
  match a with
  | ⟨0, _⟩ => show win1_1.index t (0 : Fin 2) * 128 + 1 * (x 0).val = (i 0).val; omega
  | ⟨1, _⟩ => show win1_1.index t (1 : Fin 2) * 1 + 1 * (x 1).val = (i 1).val; omega

/-- WHAT POINT t WRITES BACK is block t of the product of the two arrays as the region finds them. -/
theorem flushed_eq (t : Fin cfg1.N) :
    (dat1 V c).flushed 2 t = ((cfg1.win 2).blk t).view.read (Elt Ideal)
      (Cert.Gcn.matProd 50000 128 1 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x1) hz]
  funext j
  rw [View.read_apply]
  show k1_pay1 (F := Ideal) (iblk1 V c 0 t) (iblk1 V c 1 t) j = _
  refine (pay_apply (iblk1 V c 0 t) (iblk1 V c 1 t) j).trans ?_
  unfold Cert.Gcn.matProd
  refine Finset.sum_congr rfl fun k _ => ?_
  have hl := left_apply V c t (ValueIdx.ix2 ⟨(j 0).val, ValueIdx.idx2_lt0 j⟩ k)
    (ValueIdx.ix2 ⟨((((cfg1.win 2).blk t).view.emb j) 0).val, ValueIdx.idx2_lt0 _⟩ k)
    (by show ((((cfg1.win 2).blk t).view.emb j) 0).val = win1_2.index t (0 : Fin 2) * 5000 + (j 0).val
        show win1_2.index t (0 : Fin 2) * 5000 + 1 * (j 0).val = win1_2.index t (0 : Fin 2) * 5000 + (j 0).val
        omega) rfl
  have hr := right_apply V c t (ValueIdx.ix2 k ⟨(j 1).val, ValueIdx.idx2_lt1 j⟩)
    (ValueIdx.ix2 k ⟨((((cfg1.win 2).blk t).view.emb j) 1).val, ValueIdx.idx2_lt1 _⟩) rfl
    (by obtain ⟨e0, e1, e2, e3, e4, e5⟩ := idx_facts t
        show ((((cfg1.win 2).blk t).view.emb j) 1).val = (j 1).val
        show win1_2.index t (1 : Fin 2) * 1 + 1 * (j 1).val = (j 1).val
        omega)
  rw [hl, hr]

/-- An index of the result array is in point t's block iff each coordinate is in the block's range on its axis. -/
theorem mem_blk (t : Fin cfg1.N) (i : S50000x1.Idx) :
    i ∈ ((cfg1.win 2).blk t).view.set ↔ ∀ a : Fin 2, win1_2.index t a * S5000x1.size a ≤ (i a).val ∧ (i a).val < win1_2.index t a * S5000x1.size a + S5000x1.size a := by
  show i ∈ ((View.whole main_v48).slice (win1_2.rect t)).set ↔ _
  rw [View.set_slice_whole, Rect.mem_set_unit]
  exact Iff.rfl

/-- Row r of the result lies in the block of point r / 5000. -/
theorem cover (i : S50000x1.Idx) : ∃ t : Fin cfg1.N, (cfg1.win 2).flush t = true ∧ i ∈ ((cfg1.win 2).blk t).view.set := by
  have hi0 : (i 0).val < 50000 := (i 0).isLt
  have hi1 : (i 1).val < 1 := (i 1).isLt
  obtain ⟨t, ht⟩ := idx_onto ⟨(i 0).val / 5000 - 0, by omega⟩ ⟨(i 1).val / 1 - 0, by omega⟩
  have q0 : win1_2.index t (0 : Fin 2) = (i 0).val / 5000 - 0 + 0 := congrFun ht 0
  have q1 : win1_2.index t (1 : Fin 2) = (i 1).val / 1 - 0 + 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 1 ≤ (i 1).val ∧ (i 1).val < win1_2.index t (1 : Fin 2) * 1 + 1; omega

/-- THE RESULT ARRAY after the region: the product of the two operand arrays as the region finds them. -/
theorem array_eq : (dat1 V c).arrAt 2 cfg1.N
    = Cert.Gcn.matProd 50000 128 1 (V c (Pipeline.arrRef spec1 0)) (V c (Pipeline.arrRef spec1 1)) :=
  (dat1 V c).arrAt_eq_of_cover 2 _ (fun t _ => flushed_eq V c t) cover

end Cert.KernelIdeal.Product1

end
-- ==== Proof.RefProduct.lean ====
/-
  The reference's two products. On the host a product is one `dot_general` contracting the left operand's columns
  with the right operand's rows; over the extended reals that is the plain sum Σ_k X(r, k) · W(k, c), with no
  accumulator and whatever the evaluation order: the matrix product `Cert.Gcn.matProd`.
-/
import proofs.«168555_j64304250356313_1_alg».proof.Proof.Gen.ReferenceIdeal
import proofs.«168555_j64304250356313_1_alg».proof.Proof.MatProd
import Idealize.ShloMosaic.Lib.ValueIdx
import Idealize.ShloMosaic.PureOps.Ideal.Laws

noncomputable section

namespace Cert.ReferenceIdeal.Product

open Idealize.ShloMosaic Cert.ReferenceIdeal Cert.ReferenceIdeal.Gen

/-! ## dot1 -/

theorem dot1_lhs_0 (i : S50000x128.Idx) (q : dot_S50000x512_S512x128_S50000x128_1_0_0_1_n_n.contr.Idx) :
    (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem dot1_lhs_1 (i : S50000x128.Idx) (q : dot_S50000x512_S512x128_S50000x128_1_0_0_1_n_n.contr.Idx) :
    (dot_S50000x512_S512x128_S50000x128_1_0_0_1_n_n.lhsIdx i q 1).val = (q ⟨0, by decide⟩).val :=
  dot_S50000x512_S512x128_S50000x128_1_0_0_1_n_n.lhsIdx_val_of_single rfl i q
theorem dot1_rhs_0 (i : S50000x128.Idx) (q : dot_S50000x512_S512x128_S50000x128_1_0_0_1_n_n.contr.Idx) :
    (dot_S50000x512_S512x128_S50000x128_1_0_0_1_n_n.rhsIdx i q 0).val = (q ⟨0, by decide⟩).val :=
  dot_S50000x512_S512x128_S50000x128_1_0_0_1_n_n.rhsIdx_val_of_single rfl i q
theorem dot1_rhs_1 (i : S50000x128.Idx) (q : dot_S50000x512_S512x128_S50000x128_1_0_0_1_n_n.contr.Idx) :
    (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The host's `dot_general` of an n × 512 by a 512 × 128 array, over the extended reals, is their matrix product. -/
theorem dot1_eq (X : (⟨S50000x512, .f32⟩ : BufTy).Contents (Elt Ideal)) (W : (⟨S512x128, .f32⟩ : BufTy).Contents (Elt Ideal)) :
    Host.dotGeneral (F := Ideal) (φ₁ := .f32) (φ₂ := .f32) dot_S50000x512_S512x128_S50000x128_1_0_0_1_n_n none X W = Cert.Gcn.matProd 50000 512 128 X W := by
  funext i
  unfold Cert.Gcn.matProd
  simp only [Host.dotGeneral]
  rw [Ideal.dotGeneral_apply, ← Equiv.sum_comp (ValueIdx.contrEquiv1 dot_S50000x512_S512x128_S50000x128_1_0_0_1_n_n 512 rfl rfl).symm]
  refine Finset.sum_congr rfl fun k _ => ?_
  have hk := ValueIdx.contrEquiv1_symm_val dot_S50000x512_S512x128_S50000x128_1_0_0_1_n_n 512 rfl rfl k
  have el : dot_S50000x512_S512x128_S50000x128_1_0_0_1_n_n.lhsIdx i ((ValueIdx.contrEquiv1 dot_S50000x512_S512x128_S50000x128_1_0_0_1_n_n 512 rfl rfl).symm k)
      = ValueIdx.ix2 ⟨(i 0).val, ValueIdx.idx2_lt0 i⟩ k := funext fun a => Fin.ext (by
    match a with
    | ⟨0, _⟩ => exact dot1_lhs_0 _ _
    | ⟨1, _⟩ => exact (dot1_lhs_1 _ _).trans hk)
  have er : dot_S50000x512_S512x128_S50000x128_1_0_0_1_n_n.rhsIdx i ((ValueIdx.contrEquiv1 dot_S50000x512_S512x128_S50000x128_1_0_0_1_n_n 512 rfl rfl).symm k)
      = ValueIdx.ix2 k ⟨(i 1).val, ValueIdx.idx2_lt1 i⟩ := funext fun a => Fin.ext (by
    match a with
    | ⟨0, _⟩ => exact (dot1_rhs_0 _ _).trans hk
    | ⟨1, _⟩ => exact dot1_rhs_1 _ _)
  rw [el, er]

/-! ## dot2 -/

theorem dot2_lhs_0 (i : S50000x1.Idx) (q : dot_S50000x128_S128x1_S50000x1_1_0_0_1_n_n.contr.Idx) :
    (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem dot2_lhs_1 (i : S50000x1.Idx) (q : dot_S50000x128_S128x1_S50000x1_1_0_0_1_n_n.contr.Idx) :
    (dot_S50000x128_S128x1_S50000x1_1_0_0_1_n_n.lhsIdx i q 1).val = (q ⟨0, by decide⟩).val :=
  dot_S50000x128_S128x1_S50000x1_1_0_0_1_n_n.lhsIdx_val_of_single rfl i q
theorem dot2_rhs_0 (i : S50000x1.Idx) (q : dot_S50000x128_S128x1_S50000x1_1_0_0_1_n_n.contr.Idx) :
    (dot_S50000x128_S128x1_S50000x1_1_0_0_1_n_n.rhsIdx i q 0).val = (q ⟨0, by decide⟩).val :=
  dot_S50000x128_S128x1_S50000x1_1_0_0_1_n_n.rhsIdx_val_of_single rfl i q
theorem dot2_rhs_1 (i : S50000x1.Idx) (q : dot_S50000x128_S128x1_S50000x1_1_0_0_1_n_n.contr.Idx) :
    (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl

/-- The host's `dot_general` of an n × 128 by a 128 × 1 array, over the extended reals, is their matrix product. -/
theorem dot2_eq (X : (⟨S50000x128, .f32⟩ : BufTy).Contents (Elt Ideal)) (W : (⟨S128x1, .f32⟩ : BufTy).Contents (Elt Ideal)) :
    Host.dotGeneral (F := Ideal) (φ₁ := .f32) (φ₂ := .f32) dot_S50000x128_S128x1_S50000x1_1_0_0_1_n_n none X W = Cert.Gcn.matProd 50000 128 1 X W := by
  funext i
  unfold Cert.Gcn.matProd
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx i ((ValueIdx.contrEquiv1 dot_S50000x128_S128x1_S50000x1_1_0_0_1_n_n 128 rfl rfl).symm k)
      = ValueIdx.ix2 ⟨(i 0).val, ValueIdx.idx2_lt0 i⟩ k := funext fun a => Fin.ext (by
    match a with
    | ⟨0, _⟩ => exact dot2_lhs_0 _ _
    | ⟨1, _⟩ => exact (dot2_lhs_1 _ _).trans hk)
  have er : dot_S50000x128_S128x1_S50000x1_1_0_0_1_n_n.rhsIdx i ((ValueIdx.contrEquiv1 dot_S50000x128_S128x1_S50000x1_1_0_0_1_n_n 128 rfl rfl).symm k)
      = ValueIdx.ix2 k ⟨(i 1).val, ValueIdx.idx2_lt1 i⟩ := funext fun a => Fin.ext (by
    match a with
    | ⟨0, _⟩ => exact (dot2_rhs_0 _ _).trans hk
    | ⟨1, _⟩ => exact dot2_rhs_1 _ _)
  rw [el, er]

end Cert.ReferenceIdeal.Product

end
-- ==== Proof.KernelRun.lean ====
/-
  The idealized kernel's run with its RESULT named. The program is two pipelined matrix products among stretches of host
  operations; its frame theorem says that every weakly fair execution terminates with every unscoped buffer at the
  contents `W8` — the fold of the host stretches and of the two regions' write-backs from the launch memory — and
  then keeps only the argument arrays. Here the same run is stated keeping the result buffer `main_v69` as well:
  it ends at `W8` read at `main_v69`.
-/
import proofs.«168555_j64304250356313_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents `W8` and the argument arrays end as launched. @main is the run of its
    eight segments (six host stretches, two regions) chained through the thread state "every unscoped buffer at the
    boundary's contents"; the last thread state is read against the final memory, which gives every unscoped buffer
    at `W8` — the result buffer `main_v69` among them, and each argument, which `W8` leaves as launched. -/
theorem run_result : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.KernelValue.lean ====
/-
  The idealized kernel's result is the network of `Cert.Gcn.gcn`. Reading the last boundary's contents at the result
  buffer backwards: the tail is sigmoid of the second aggregation of the second region's array; that array is the
  matrix product of the hidden layer and W₂ (ten row blocks covering it), which the host's `dot_general` also is; the
  hidden layer is relu of the first aggregation of the first region's array, again the product x·W₁; and the message
  ends and weights the two aggregations use were computed once, before the first region, from the edge list, and are
  carried unchanged across both regions and the stretch between them.
-/
import proofs.«168555_j64304250356313_1_alg».proof.Proof.HostWalk
import proofs.«168555_j64304250356313_1_alg».proof.Proof.KernelProduct0
import proofs.«168555_j64304250356313_1_alg».proof.Proof.KernelProduct1
import proofs.«168555_j64304250356313_1_alg».proof.Proof.RefProduct
import proofs.«168555_j64304250356313_1_alg».proof.Proof.KernelRun

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- After the first region its result array is x·W₁, as the host's `dot_general` of the two arguments. -/
theorem W4_product : W4 m ρ c (Proc.devRef .tc main_v30)
    = Host.dotGeneral (F := Ideal) (φ₁ := .f32) (φ₂ := .f32) Cert.ReferenceIdeal.dot_S50000x512_S512x128_S50000x128_1_0_0_1_n_n none (m ((c : Thread nD τ).loc main_arg0)) (m ((c : Thread nD τ).loc main_arg1)) := by
  refine (W4_arr m ρ c 2).trans ?_
  rw [Product0.array_eq (V3 m ρ) c, Cert.ReferenceIdeal.Product.dot1_eq]
  exact congrArg₂ (Cert.Gcn.matProd 50000 512 128) (Walk.W3_arg0 m ρ c) (Walk.W3_arg1 m ρ c)

/-- After the second region its result array is h·W₂ of the hidden layer and W₂ as the region found them. -/
theorem W7_product : W7 m ρ c (Proc.devRef .tc main_v48)
    = Host.dotGeneral (F := Ideal) (φ₁ := .f32) (φ₂ := .f32) Cert.ReferenceIdeal.dot_S50000x128_S128x1_S50000x1_1_0_0_1_n_n none
        (W6 m ρ c (Proc.devRef .tc main_v47)) (W6 m ρ c (Proc.devRef .tc main_arg3)) := by
  refine (W7_arr m ρ c 2).trans ?_
  rw [Product1.array_eq (V6 m ρ) c, Cert.ReferenceIdeal.Product.dot2_eq]

/-- THE RESULT: the last boundary's contents at the result buffer are the network of the six argument arrays. -/
theorem result_eq : W8 m ρ c (Proc.devRef .tc main_v69)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Walk.W8_result m ρ c, W7_product m ρ c,
    W7_of_ne m ρ c main_v3 (by decide), W7_of_ne m ρ c main_v6 (by decide), W7_of_ne m ρ c main_v29 (by decide),
    W7_of_ne m ρ c main_arg4 (by decide),
    Walk.W6_hidden m ρ c, Walk.W6_src m ρ c, Walk.W6_dst m ρ c, Walk.W6_norm m ρ c, Walk.W6_arg3 m ρ c, Walk.W6_arg4 m ρ c,
    W4_product m ρ c,
    W4_of_ne m ρ c main_v3 (by decide), W4_of_ne m ρ c main_v6 (by decide), W4_of_ne m ρ c main_v29 (by decide),
    W4_of_ne m ρ c main_arg2 (by decide), W4_of_ne m ρ c main_arg3 (by decide), W4_of_ne m ρ c main_arg4 (by decide),
    Walk.W3_src m ρ c, Walk.W3_dst m ρ c, Walk.W3_norm m ρ c, Walk.W3_arg2 m ρ c, Walk.W3_arg3 m ρ c, Walk.W3_arg4 m ρ c]
  rfl

/-- The idealized kernel's run: every weakly fair execution terminates, the result buffer at the network of the
    arguments, the arguments as launched. -/
theorem run : θ_run defs (onTc (τ := τ) (main (F := Ideal))) ⟨m, fun _ => 0, ρ⟩ (fun r => ∀ c : Dev nD,
      r.2.mem ((c.tc : Thread nD τ).loc main_v69)
        = Cert.Gcn.gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Result

end
-- ==== Proof.lean ====
/-
  A two-layer graph convolution, sigmoid(layer₂(relu(layer₁(x)))), with layer(h)(t) = Σ_{k : dst k = t} (h·W)(src k)·norm(k) + b
  over the 800000 given edges and one self loop per node, norm(k) = d(src k)·d(dst k) and d = deg^(-1/2) where the degree
  is positive, else 0.

  The kernel forms each product h·W on the matrix unit, ten blocks of 5000 rows at a time with bf16 operands and an f32
  accumulator, and does everything else — the degrees, the per-message weights (once, for both layers), the gathers,
  the scatter-adds, the biases, relu and sigmoid — on the host; the reference does the same host operations (computing
  the weights once per layer) around two `dot_general`s. Over the extended reals a change of float format is the
  identity and the blocked product into a zero accumulator is the same sum Σ_k h(r, k)·W(k, c) as the `dot_general`,
  so both programs compute ONE function of the six arguments (`Cert.Gcn.gcn`). No algebraic law beyond reading the
  two products as that sum is used, so the finiteness of the inputs is never opened.

  * the three frames: the two kernels' are the frame theorems of their two-region runs; the reference's is its run
    with the result dropped;
  * preserves: the idealization rewrote no operation, so there is nothing to state;
  * algebraic: the kernel's run ends with the result buffer at `gcn` of its arguments (Proof/KernelValue.lean: the host
    stretches read back, each region's array the matrix product of its operands), the reference's run at `gcn` of
    its own (Proof/RefIsSpec.lean), and the arguments agree.
-/
import proofs.«168555_j64304250356313_1_alg».proof.Defs
import proofs.«168555_j64304250356313_1_alg».proof.Proof.Gen.Kernel
import proofs.«168555_j64304250356313_1_alg».proof.Proof.Gen.Kernel.Skeleton
import proofs.«168555_j64304250356313_1_alg».proof.Proof.Gen.Kernel.Launch
import proofs.«168555_j64304250356313_1_alg».proof.Proof.Gen.Kernel.Points
import proofs.«168555_j64304250356313_1_alg».proof.Proof.Gen.Kernel.Frame
import proofs.«168555_j64304250356313_1_alg».proof.Proof.Gen.KernelIdeal
import proofs.«168555_j64304250356313_1_alg».proof.Proof.Gen.KernelIdeal.Skeleton
import proofs.«168555_j64304250356313_1_alg».proof.Proof.Gen.KernelIdeal.Launch
import proofs.«168555_j64304250356313_1_alg».proof.Proof.Gen.KernelIdeal.Points
import proofs.«168555_j64304250356313_1_alg».proof.Proof.Gen.KernelIdeal.Frame
import proofs.«168555_j64304250356313_1_alg».proof.Proof.Gen.ReferenceIdeal
import proofs.«168555_j64304250356313_1_alg».proof.Proof.RefRunP
import proofs.«168555_j64304250356313_1_alg».proof.Proof.RefIsSpec
import proofs.«168555_j64304250356313_1_alg».proof.Proof.KernelValue
import proofs.«168555_j64304250356313_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result's equation dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result buffer at the network `Cert.Gcn.gcn` of the run's own argument arrays, and the two
    memories agree on the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.Gcn.reference_result m' c, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
